-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x512 : Shape := ⟨2, ![128, 512]⟩
abbrev S512 : Shape := ⟨1, ![512]⟩
abbrev S512x128 : Shape := ⟨2, ![512, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x512 .f32) (main_arg3 : FVec F S512 .f32) (main_arg4 : FVec F S512x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x128 .f32 := Host.absf main_arg4
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x512 : Shape := ⟨2, ![128, 512]⟩
abbrev S512 : Shape := ⟨1, ![512]⟩
abbrev S512x128 : Shape := ⟨2, ![512, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x512 : Shape := ⟨2, ![1, 512]⟩
abbrev S1x128 : Shape := ⟨2, ![1, 128]⟩
abbrev S5000x128 : Shape := ⟨2, ![5000, 128]⟩
abbrev S5000x512 : Shape := ⟨2, ![5000, 512]⟩

abbrev nBuf : Space → Nat
  | .hbm => 28
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S128x512, .bf16⟩
  | .hbm, ⟨24, _⟩ => ⟨S512x128, .bf16⟩
  | .hbm, ⟨25, _⟩ => ⟨S1x512, .f32⟩
  | .hbm, ⟨26, _⟩ => ⟨S1x128, .f32⟩
  | .hbm, ⟨27, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x512, .bf16⟩
  | .local _ .vmem, ⟨5, _⟩ => ⟨S1x512, .f32⟩
  | .local _ .vmem, ⟨6, _⟩ => ⟨S512x128, .bf16⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bitsLt_bf16_f32 : FTy.bits .bf16 < FTy.bits .f32
  shapeCasts_S512_S1x512 : S512.ShapeCasts S1x512
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S5000x512 : S1x512.Broadcasts S5000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x512_S5000x512_1_0_0_1_n_n_wf : DotDims.WF S5000x128 S128x512 S5000x512 [1] [0] [0] [1] [] []
  dot_S5000x512_S512x128_S5000x128_1_0_0_1_n_n_wf : DotDims.WF S5000x512 S512x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .bf16 = 32 ∨ (Rect.block (s := S128x512) S128x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S512x128.size a
  hwx0_4 : ∀ i : grid0.Coords, EltTy.bits .bf16 = 32 ∨ (Rect.block (s := S512x128) S512x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x512_S5000x512_1_0_0_1_n_n : DotDims S5000x128 S128x512 S5000x512 where
  lhsContracting := [1]
  rhsContracting := [0]
  lhsNonContracting := [0]
  rhsNonContracting := [1]
  lhsBatch := []
  rhsBatch := []
  wf := dot_S5000x128_S128x512_S5000x512_1_0_0_1_n_n_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S512x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x512 : Shape := ⟨2, ![128, 512]⟩
abbrev S512 : Shape := ⟨1, ![512]⟩
abbrev S512x128 : Shape := ⟨2, ![512, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x512 : Shape := ⟨2, ![100000, 512]⟩
abbrev S1x512 : Shape := ⟨2, ![1, 512]⟩
abbrev S1x128 : Shape := ⟨2, ![1, 128]⟩

abbrev nBuf : Space → Nat
  | .hbm => 38
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S100000x128, .f32⟩
  | .hbm, ⟨25, _⟩ => ⟨S100000x128, .f32⟩
  | .hbm, ⟨26, _⟩ => ⟨S100000x128, .f32⟩
  | .hbm, ⟨27, _⟩ => ⟨S100000x512, .f32⟩
  | .hbm, ⟨28, _⟩ => ⟨S1x512, .f32⟩
  | .hbm, ⟨29, _⟩ => ⟨S100000x512, .f32⟩
  | .hbm, ⟨30, _⟩ => ⟨S100000x512, .f32⟩
  | .hbm, ⟨31, _⟩ => ⟨S_, .f32⟩
  | .hbm, ⟨32, _⟩ => ⟨S100000x512, .f32⟩
  | .hbm, ⟨33, _⟩ => ⟨S100000x512, .f32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x512_S100000x512_1_0_0_1_n_n_wf : DotDims.WF S100000x128 S128x512 S100000x512 [1] [0] [0] [1] [] []
  dot_S100000x512_S512x128_S100000x128_1_0_0_1_n_n_wf : DotDims.WF S100000x512 S512x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x512_S100000x512_1_0_0_1_n_n : DotDims S100000x128 S128x512 S100000x512 where
  lhsContracting := [1]
  rhsContracting := [0]
  lhsNonContracting := [0]
  rhsNonContracting := [1]
  lhsBatch := []
  rhsBatch := []
  wf := dot_S100000x128_S128x512_S100000x512_1_0_0_1_n_n_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf

class Facts : Prop extends Facts₀ where

variable [Facts]
-- ==== Proof.LayerSpec.lean ====
/-
  One graph-network layer on 100000 nodes with 128 features, as ONE function of its arrays, index by index, on the
  extended reals.

  Given the node features x, an array a of the same shape (the neighbours' features summed into each node), weights
  W1 : 128 x 512, W2 : 512 x 128 and biases b1, b2:

      hidden (r, k) = max ( sum over l < 128 of (x (r, l) + a (r, l)) * W1 (l, k)  +  b1 k ,  0 )
      layer  (r, q) =        sum over k < 512 of hidden (r, k) * W2 (k, q)           +  b2 q

  Row r of the result depends on row r of x and of a only. The floor of the maximum is written as the 32-bit word of
  +0.0, the way both programs write it; it is never evaluated.
-/
import Idealize.ShloMosaic.PureOps.Ideal
import Idealize.ShloMosaic.Lib.ValueIdx

noncomputable section

namespace Cert.LayerSpec

open Idealize.ShloMosaic Idealize.ShloMosaic.ValueIdx

/-- Hidden unit k of node r: the rectified affine image of the node's own features plus its neighbours' sum. -/
def hidden (x a : FVec Ideal ⟨2, ![100000, 128]⟩ .f32) (W1 : FVec Ideal ⟨2, ![128, 512]⟩ .f32)
    (b1 : FVec Ideal ⟨1, ![512]⟩ .f32) (r : Fin 100000) (k : Fin 512) : EReal :=
  max ((∑ l : Fin 128, (x (ix2 r l) + a (ix2 r l)) * W1 (ix2 l k)) + b1 (ix1 k)) (Ideal.ofBits .f32 0x00000000#32)

/-- The layer's output: the second affine map of the hidden units. -/
def layer (x a : FVec Ideal ⟨2, ![100000, 128]⟩ .f32) (W1 : FVec Ideal ⟨2, ![128, 512]⟩ .f32)
    (b1 : FVec Ideal ⟨1, ![512]⟩ .f32) (W2 : FVec Ideal ⟨2, ![512, 128]⟩ .f32) (b2 : FVec Ideal ⟨1, ![128]⟩ .f32) :
    FVec Ideal ⟨2, ![100000, 128]⟩ .f32 :=
  fun i => (∑ k : Fin 512, hidden x a W1 b1 (i 0) k * W2 (ix2 k (i 1))) + b2 (ix1 (i 1))

/-- The layer at explicit coordinates. -/
theorem layer_apply (x a : FVec Ideal ⟨2, ![100000, 128]⟩ .f32) (W1 : FVec Ideal ⟨2, ![128, 512]⟩ .f32)
    (b1 : FVec Ideal ⟨1, ![512]⟩ .f32) (W2 : FVec Ideal ⟨2, ![512, 128]⟩ .f32) (b2 : FVec Ideal ⟨1, ![128]⟩ .f32)
    (r : Fin 100000) (q : Fin 128) :
    layer x a W1 b1 W2 b2 (ix2 r q) = (∑ k : Fin 512, hidden x a W1 b1 r k * W2 (ix2 k q)) + b2 (ix1 q) := rfl

end Cert.LayerSpec

end
-- ==== Proof.LibSpellings.lean ====
/-
  Four places where a host program and a kernel spell one value differently, or where a recast only renames an
  index — each stated once, over the library alone, at the extended reals where floats are involved.

    * `ofBits_one_f32`: the 32-bit word 0x3F800000 is the number 1.
    * `hostQuotient_eq_logistic`: the host's expansion of the sigmoid, 1 / (1 + exp (-y)) with its ones written as
      that word, is the one-operation sigmoid: both are `Ideal.div 1 (1 + exp (-y))`, on every extended real.
    * `sitofp_setWidth_bit`: a one-bit word widened to 32 bits and read as a signed integer is the bit read as an
      unsigned integer (the widening puts zeros in front, so the sign bit is 0): the kernel's convert of a widened
      comparison bit is the host's convert of the bit.
    * `shapeCast_ab_11ab_apply`: an `[a, b]` matrix recast to `[1, 1, a, b]` reads, at (u, v, i, j), the matrix at
      (i, j): two unit axes in front add nothing to the row-major position.
  None needs a finiteness hypothesis.
-/
import Idealize.ShloMosaic.PureOps.Ideal
import Idealize.ShloMosaic.Lib.ValueIdx
import Idealize.ShloMosaic.Lib.ValueLayout
import Idealize.ShloMosaic.Lib.KernelVsHost

noncomputable section

namespace Cert.LibSpellings

open Idealize.ShloMosaic Idealize.ShloMosaic.ValueIdx

/-- The word 0x3F800000 is the number one. -/
theorem ofBits_one_f32 : Ideal.ofBits .f32 0x3F800000#32 = 1 := by
  simp [Ideal.ofBits, Ideal.ieee, -EReal.coe_mul]; norm_num

/-- The quotient 1 / (1 + exp (-y)), its ones written as words, is sigma(y): both are `Ideal.div 1 (1 + exp (-y))`. -/
theorem hostQuotient_eq_logistic (y : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf y)))
    = FloatOps.logistic y := by
  rw [Ideal.ofBits_def, ofBits_one_f32]; rfl

/-- A bit widened to 32 bits and read signed is the bit read unsigned: zero or one either way. -/
theorem sitofp_setWidth_bit (φ : FTy) (b : BitVec 1) :
    FloatOps.sitofp (F := Ideal) φ (b.setWidth 32) = FloatOps.uitofp (F := Ideal) φ b := by
  show (((b.setWidth 32).toInt : ℝ) : EReal) = ((b.toNat : ℝ) : EReal)
  rw [toInt_setWidth_bit]; norm_cast

/-- An `[a, b]` matrix recast to `[1, 1, a, b]` reads, at `(u, v, i, j)`, the matrix at `(i, j)`: the two unit axes
    contribute nothing to the row-major position. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    rw [Shape.rowMajor_val_four, Shape.rowMajor_val_two]
    show i.val * b + j.val = ((u.val * 1 + v.val) * a + i.val) * b + j.val
    have hu : u.val = 0 := Nat.lt_one_iff.mp u.isLt
    have hv : v.val = 0 := Nat.lt_one_iff.mp v.isLt
    simp only [hu, hv, Nat.zero_mul, Nat.zero_add])

end Cert.LibSpellings

end
-- ==== Proof.RefLayer.lean ====
/-
  The reference program computes the layer of LayerSpec, with the neighbours' sum left as the program's own stage.

  Its text scales x by the constant 1.0 before adding the neighbours' sum; the word 0x3F800000 is the number 1 and
  1 * y = y for every extended real y, the infinities included, so the scaled array is x. Each of its two matrix
  products is, entry by entry, the sum over the contracted axis; each bias is a vector made a one-row matrix and
  repeated down the rows; the rectifier is the maximum with the word of +0.0.
-/
import proofs.«149909_j61607010894468_1_alg».proof.Proof.Gen.ReferenceIdeal.Read
import proofs.«149909_j61607010894468_1_alg».proof.Proof.LayerSpec
import proofs.«149909_j61607010894468_1_alg».proof.Proof.LibSpellings

noncomputable section

namespace Cert.RefLayer

open Idealize.ShloMosaic Idealize.ShloMosaic.ValueIdx
open Cert.ReferenceIdeal Cert.ReferenceIdeal.Read Cert.LayerSpec

variable (x0 : (⟨S100000x128, .f32⟩ : BufTy).Contents (Elt Ideal)) (x1 : (⟨S2x1600000, .i32⟩ : BufTy).Contents (Elt Ideal))
  (x2 : (⟨S128x512, .f32⟩ : BufTy).Contents (Elt Ideal)) (x3 : (⟨S512, .f32⟩ : BufTy).Contents (Elt Ideal))
  (x4 : (⟨S512x128, .f32⟩ : BufTy).Contents (Elt Ideal)) (x5 : (⟨S128, .f32⟩ : BufTy).Contents (Elt Ideal))

/-- The array the first product takes: x scaled by one, plus the neighbours' sum, is x plus the neighbours' sum. -/
theorem summed_apply (i : S100000x128.Idx) :
    val_main_v16 (F := Ideal) x0 x1 i = x0 i + val_main_v13 (F := Ideal) x0 x1 i := by
  rw [val_main_v16_apply, val_main_v15_apply, val_main_v14_apply, val_main_cst_1_apply]
  simp only [Ideal.ofBits_def, Ideal.addf_def, Ideal.mulf_def, Cert.LibSpellings.ofBits_one_f32, one_mul]

theorem lidx17 (r : Fin 100000) (k : Fin 512) (l : Fin 128) : lidx_main_v17 (ix2 r k) l = ix2 r l :=
  funext fun a => Fin.ext (by match a with | ⟨0, _⟩ => rfl | ⟨1, _⟩ => rfl)
theorem ridx17 (r : Fin 100000) (k : Fin 512) (l : Fin 128) : ridx_main_v17 (ix2 r k) l = ix2 l k :=
  funext fun a => Fin.ext (by match a with | ⟨0, _⟩ => rfl | ⟨1, _⟩ => rfl)
theorem bidx1 (r : Fin 100000) (k : Fin 512) : idx_main_v18 (idx_main_v19 (ix2 r k)) = ix1 k :=
  funext fun a => Fin.ext (by match a with | ⟨0, _⟩ => rfl)
theorem lidx22 (r : Fin 100000) (q : Fin 128) (k : Fin 512) : lidx_main_v22 (ix2 r q) k = ix2 r k :=
  funext fun a => Fin.ext (by match a with | ⟨0, _⟩ => rfl | ⟨1, _⟩ => rfl)
theorem ridx22 (r : Fin 100000) (q : Fin 128) (k : Fin 512) : ridx_main_v22 (ix2 r q) k = ix2 k q :=
  funext fun a => Fin.ext (by match a with | ⟨0, _⟩ => rfl | ⟨1, _⟩ => rfl)
theorem bidx2 (r : Fin 100000) (q : Fin 128) : idx_main_v23 (idx_main_v24 (ix2 r q)) = ix1 q :=
  funext fun a => Fin.ext (by match a with | ⟨0, _⟩ => rfl)

/-- The reference's rectified stage is the hidden layer. -/
theorem hidden_apply (r : Fin 100000) (k : Fin 512) :
    val_main_v21 (F := Ideal) x0 x1 x2 x3 (ix2 r k) = hidden x0 (val_main_v13 (F := Ideal) x0 x1) x2 x3 r k := by
  rw [val_main_v21_apply, val_main_v20_apply, val_main_v17_apply, val_main_v19_apply, val_main_v18_apply,
    val_main_call0_v0_apply, val_main_call0_cst_apply]
  simp only [lidx17, ridx17, bidx1, summed_apply, Ideal.ofBits_def, Ideal.addf_def, Ideal.maximumf_def]
  rfl

/-- The reference's result is the layer of x and its own neighbours' sum. -/
theorem result_eq :
    val_main_v25 (F := Ideal) x0 x1 x2 x3 x4 x5 = layer x0 (val_main_v13 (F := Ideal) x0 x1) x2 x3 x4 x5 := by
  funext i
  obtain ⟨r, q, rfl⟩ : ∃ (r : Fin 100000) (q : Fin 128), i = ix2 r q := ⟨i 0, i 1, eq_ix2 i⟩
  rw [val_main_v25_apply, val_main_v22_apply, val_main_v24_apply, val_main_v23_apply, layer_apply]
  simp only [lidx22, ridx22, bidx2, hidden_apply, Ideal.addf_def]

end Cert.RefLayer

end
-- ==== Proof.Staged.lean ====
/-
  The arrays the kernel's region finds, beyond the arguments themselves.

  Before the region the host program computes, from x and the edge list, the neighbours' sum: every edge's source row
  of x (a negative source index counted from the end) is added into the edge's destination row of an array of zeros.
  That stretch of the program is, operation for operation, the stretch the reference program starts with, so the array
  the region finds is the reference's own stage, whatever those rows are. The two weight matrices are found in a
  narrower float format, which on extended reals is no change; the two biases are found as one-row matrices.
-/
import proofs.«149909_j61607010894468_1_alg».proof.Proof.Gen.KernelIdeal.Frame
import proofs.«149909_j61607010894468_1_alg».proof.Proof.Gen.ReferenceIdeal.Read
import Idealize.ShloMosaic.Lib.StableHlo.Run
import Idealize.ShloMosaic.PureOps.Ideal

noncomputable section

namespace Cert.Staged

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The second window's array is the neighbours' sum, as the reference program computes it from the same arguments. -/
theorem nbrs (c : Dev nD) :
    (V m c main_v13 : S100000x128.Idx → EReal)
      = Cert.ReferenceIdeal.Read.val_main_v13 (F := Ideal) (m ((c : Thread nD τ).loc main_arg0)) (m ((c : Thread nD τ).loc main_arg1)) := by
  dsimp only [Gen.V, Gen.hostOps0]
  after_results
  rfl

/-- The second window's array is that buffer. -/
theorem arr1 : Pipeline.arrRef spec0 1 = main_v13 := rfl

/-- The same fact for any name of that buffer. -/
theorem nbrs_of (c : Dev nD) (b : Ref sig .tc) (hb : b = main_v13) :
    HEq (V m c b)
      (Cert.ReferenceIdeal.Read.val_main_v13 (F := Ideal) (m ((c : Thread nD τ).loc main_arg0)) (m ((c : Thread nD τ).loc main_arg1))) := by
  subst hb
  exact heq_of_eq (nbrs m c)

/-- The array the second window reads, named as the window names it. -/
theorem nbrs_window (c : Dev nD) :
    (V m c (Pipeline.arrRef spec0 1) : S100000x128.Idx → EReal)
      = Cert.ReferenceIdeal.Read.val_main_v13 (F := Ideal) (m ((c : Thread nD τ).loc main_arg0)) (m ((c : Thread nD τ).loc main_arg1)) :=
  eq_of_heq (nbrs_of m c (Pipeline.arrRef spec0 1) arr1)

/-- The first weight matrix, narrowed: the same extended reals. -/
theorem w1 (c : Dev nD) : (V m c main_v14 : S128x512.Idx → EReal) = m ((c : Thread nD τ).loc main_arg2) := by
  dsimp only [Gen.V, Gen.hostOps0]
  after_results
  rfl

/-- The second weight matrix, narrowed: the same extended reals. -/
theorem w2 (c : Dev nD) : (V m c main_v15 : S512x128.Idx → EReal) = m ((c : Thread nD τ).loc main_arg4) := by
  dsimp only [Gen.V, Gen.hostOps0]
  after_results
  rfl

/-- The first bias as a one-row matrix. -/
theorem b1 (c : Dev nD) :
    (V m c main_v16 : S1x512.Idx → EReal)
      = shapeCast S1x512 (m ((c : Thread nD τ).loc main_arg3) : S512.Idx → EReal) Facts₀.shapeCasts_S512_S1x512 := by
  dsimp only [Gen.V, Gen.hostOps0]
  after_results
  rfl

/-- The second bias as a one-row matrix. -/
theorem b2 (c : Dev nD) :
    (V m c main_v17 : S1x128.Idx → EReal)
      = shapeCast S1x128 (m ((c : Thread nD τ).loc main_arg5) : S128.Idx → EReal) Facts₀.shapeCasts_S128_S1x128 := by
  dsimp only [Gen.V, Gen.hostOps0]
  after_results
  rfl

end Cert.Staged

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.BodyValue.lean ====
/-
  What the kernel's body stores, entry by entry, on the extended reals.

  The body works on one block of 5000 nodes. From the block's rows of x and of the neighbours' sum, the two weight
  matrices and the two biases held as one-row matrices, it stores at (p, q)

      sum over k < 512 of max ( sum over l < 128 of (x (p, l) + a (p, l)) * W1 (l, k) + b1 (0, k) , 0 ) * W2 (k, q)
        + b2 (0, q).

  The changes of float format between the operations are the identity on extended reals; each matrix product
  accumulates into an array of zeros and is the plain sum over the contracted axis; each bias row is repeated down the
  5000 rows.
-/
import proofs.«149909_j61607010894468_1_alg».proof.Proof.Gen.KernelIdeal.Skeleton
import proofs.«149909_j61607010894468_1_alg».proof.Proof.LibPlainDot
import Idealize.ShloMosaic.Lib.Pipeline.Value
import Idealize.ShloMosaic.Lib.ValueLayout
import Idealize.ShloMosaic.Lib.ValueIdx

noncomputable section

namespace Cert.BodyValue

open Idealize.ShloMosaic Idealize.ShloMosaic.ValueIdx
open Cert.KernelIdeal Cert.KernelIdeal.Gen

/-- The first product's dimension numbers are those of a plain 5000 x 128 by 128 x 512 product. -/
theorem dims1 : dot_S5000x128_S128x512_S5000x512_1_0_0_1_n_n = DotDims.plain 5000 128 512 := rfl
/-- The second product's are those of a plain 5000 x 512 by 512 x 128 product. -/
theorem dims2 : dot_S5000x512_S512x128_S5000x128_1_0_0_1_n_n = DotDims.plain 5000 512 128 := rfl

/-- A product into zeros, plus a repeated bias row, rectified: the entry (p, k). -/
theorem rectified_apply (h : FVec Ideal S5000x128 .bf16) (w : FVec Ideal S128x512 .bf16) (b : FVec Ideal S1x512 .f32)
    (hb : S1x512.Broadcasts S5000x512) (p : Fin 5000) (k : Fin 512) :
    maximumf (F := Ideal)
      (addf (matmul (F := Ideal) dot_S5000x128_S128x512_S5000x512_1_0_0_1_n_n none h w (constant S5000x512 .f32 0x00000000#32))
        (broadcastTo S5000x512 b hb))
      (broadcast S5000x512 (Scalar.ofBits (F := Ideal) .f32 0x00000000#32)) (ix2 p k)
    = max ((∑ l : Fin 128, h (ix2 p l) * w (ix2 l k)) + b (ix2 (0 : Fin 1) k)) (Ideal.ofBits .f32 0x00000000#32) := by
  rw [maximumf_apply, addf_apply, broadcast_apply, dims1]
  refine congrArg₂ max (congrArg₂ (· + ·) ?_ ?_) rfl
  · exact Cert.LibPlainDot.matmul_plain 5000 128 512 none h w (ix2 p k)
  · exact broadcastTo_1b_ab_apply b hb p k

/-- A product into zeros plus a repeated bias row: the entry (p, q). -/
theorem affine_apply (g : FVec Ideal S5000x512 .bf16) (w : FVec Ideal S512x128 .bf16) (b : FVec Ideal S1x128 .f32)
    (hb : S1x128.Broadcasts S5000x128) (p : Fin 5000) (q : Fin 128) :
    addf (F := Ideal) (matmul (F := Ideal) dot_S5000x512_S512x128_S5000x128_1_0_0_1_n_n none g w (constant S5000x128 .f32 0x00000000#32))
        (broadcastTo S5000x128 b hb) (ix2 p q)
    = (∑ k : Fin 512, g (ix2 p k) * w (ix2 k q)) + b (ix2 (0 : Fin 1) q) := by
  rw [addf_apply, dims2]
  refine congrArg₂ (· + ·) ?_ ?_
  · exact Cert.LibPlainDot.matmul_plain 5000 512 128 none g w (ix2 p q)
  · exact broadcastTo_1b_ab_apply b hb p q

/-- The hidden units of the block's row p, as the body computes them. -/
def blockHidden (v0 v1 : Vec Ideal S5000x128 .f32) (v5 : Vec Ideal S128x512 .bf16) (v8 : Vec Ideal S1x512 .f32)
    (p : Fin 5000) (k : Fin 512) : EReal :=
  max ((∑ l : Fin 128, (v0 (ix2 p l) + v1 (ix2 p l)) * v5 (ix2 l k)) + v8 (ix2 (0 : Fin 1) k))
    (Ideal.ofBits .f32 0x00000000#32)

/-- The body's stored value at (p, q). -/
theorem body_apply (v0 v1 : Vec Ideal S5000x128 .f32) (v5 : Vec Ideal S128x512 .bf16) (v8 : Vec Ideal S1x512 .f32)
    (v15 : Vec Ideal S512x128 .bf16) (v18 : Vec Ideal S1x128 .f32) (p : Fin 5000) (q : Fin 128) :
    k0_pay1 (F := Ideal) v0 v1 v5 v8 v15 v18 (ix2 p q)
      = (∑ k : Fin 512, blockHidden v0 v1 v5 v8 p k * v15 (ix2 k q)) + v18 (ix2 (0 : Fin 1) q) := by
  unfold k0_pay1
  simp only [shapeCast_self]
  refine (affine_apply _ _ _ _ p q).trans ?_
  refine congrArg₂ (· + ·) (Finset.sum_congr rfl fun k _ => congrArg₂ (· * ·) ?_ rfl) rfl
  exact rectified_apply _ _ _ _ p k

end Cert.BodyValue

end
-- ==== Proof.BlockLayer.lean ====
/-
  One block of the layer is what the body stores.

  Suppose the body's six loaded arrays are: rows T*5000 .. T*5000 + 4999 of x and of the neighbours' sum, the two weight
  matrices whole, and the two biases as one-row matrices. Then the value it stores at (p, q) is the layer's entry
  (T*5000 + p, q): the layer's row depends on that one row of x and of the neighbours' sum, and every other array is read
  at the same place in the block as in the whole.
-/
import proofs.«149909_j61607010894468_1_alg».proof.Proof.LayerSpec
import proofs.«149909_j61607010894468_1_alg».proof.Proof.BodyValue

noncomputable section

namespace Cert.BlockLayer

open Idealize.ShloMosaic Idealize.ShloMosaic.ValueIdx
open Cert.KernelIdeal Cert.KernelIdeal.Gen Cert.LayerSpec Cert.BodyValue

theorem block_eq (T : Nat)
    (X A : FVec Ideal ⟨2, ![100000, 128]⟩ .f32) (W1 : FVec Ideal ⟨2, ![128, 512]⟩ .f32) (b1 : FVec Ideal ⟨1, ![512]⟩ .f32)
    (W2 : FVec Ideal ⟨2, ![512, 128]⟩ .f32) (b2 : FVec Ideal ⟨1, ![128]⟩ .f32)
    (x0 x1 : Vec Ideal S5000x128 .f32) (x2 : Vec Ideal S128x512 .bf16) (x3 : Vec Ideal S1x512 .f32)
    (x4 : Vec Ideal S512x128 .bf16) (x5 : Vec Ideal S1x128 .f32)
    (h0 : ∀ (p : Fin 5000) (l : Fin 128) (r : Fin 100000), r.val = T * 5000 + p.val → x0 (ix2 p l) = X (ix2 r l))
    (h1 : ∀ (p : Fin 5000) (l : Fin 128) (r : Fin 100000), r.val = T * 5000 + p.val → x1 (ix2 p l) = A (ix2 r l))
    (h2 : ∀ (l : Fin 128) (k : Fin 512), x2 (ix2 l k) = W1 (ix2 l k))
    (h3 : ∀ k : Fin 512, x3 (ix2 (0 : Fin 1) k) = b1 (ix1 k))
    (h4 : ∀ (k : Fin 512) (q : Fin 128), x4 (ix2 k q) = W2 (ix2 k q))
    (h5 : ∀ q : Fin 128, x5 (ix2 (0 : Fin 1) q) = b2 (ix1 q))
    (j : S5000x128.Idx) (i : (⟨2, ![100000, 128]⟩ : Shape).Idx)
    (hi0 : (i 0).val = T * 5000 + (j 0).val) (hi1 : (i 1).val = (j 1).val) :
    k0_pay1 (F := Ideal) x0 x1 x2 x3 x4 x5 j = layer X A W1 b1 W2 b2 i := by
  obtain ⟨p, q, rfl⟩ : ∃ (p : Fin 5000) (q : Fin 128), j = ix2 p q := ⟨j 0, j 1, eq_ix2 j⟩
  obtain ⟨r, q', rfl⟩ : ∃ (r : Fin 100000) (q' : Fin 128), i = ix2 r q' := ⟨i 0, i 1, eq_ix2 i⟩
  have hq : q' = q := Fin.ext hi1
  subst hq
  have hr : r.val = T * 5000 + p.val := hi0
  rw [body_apply, layer_apply]
  unfold blockHidden Cert.LayerSpec.hidden
  simp only [fun l => h0 p l r hr, fun l => h1 p l r hr, h2, h3, h4, h5]

end Cert.BlockLayer

end
-- ==== Proof.Whole.lean ====
/-
  From blocks to the whole array: after the kernel's run its result array holds the layer of LayerSpec.

  The grid has 20 points; point t handles nodes t*5000 .. t*5000 + 4999. At point t the two row windows (x and the
  neighbours' sum) hold those rows, the other four windows hold their whole arrays, and the body's stored block is
  written back to those rows of the result. So each written block is the layer restricted to its rows (BlockLayer), and
  the 20 blocks cover all 100000 rows: row r lies in the block of point r / 5000.
-/
import proofs.«149909_j61607010894468_1_alg».proof.Proof.Gen.KernelIdeal.Value
import proofs.«149909_j61607010894468_1_alg».proof.Proof.Staged
import proofs.«149909_j61607010894468_1_alg».proof.Proof.BlockLayer
import Idealize.ShloMosaic.Lib.Pipeline.Value
import Idealize.ShloMosaic.Lib.ValueLayout

noncomputable section

namespace Cert.Whole

open Idealize.ShloMosaic Idealize.ShloMosaic.TcCoe Idealize.SL.Sem Idealize.ShloMosaic.ValueIdx
open Idealize.ShloMosaic.Pipeline (Dat)
open Cert.KernelIdeal Cert.KernelIdeal.Gen Cert.LayerSpec

variable (m : (ℓ : Loc nD τ sig) → Buf (Elt Ideal) ℓ) (ρ : Dev nD → PrngReg)

theorem zero_offsets : (![0, 0] : Fin 2 → Nat) = fun _ => 0 := funext fun a => by fin_cases a <;> rfl

/-- Where each window's block sits at point t: the two row windows and the result's at block row t, the others at
    their one block. Decided over the 20 points. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The first window's block at point t is rows t*5000 .. of x. -/
theorem rows_x (c : Dev nD) (t : Fin cfg0.N) (p : Fin 5000) (l : Fin 128) (r : Fin 100000) (hr : r.val = t.val * 5000 + p.val) :
    (iblk m c 0 t : Vec Ideal S5000x128 .f32) (ix2 p l)
      = (m ((c : Thread nD τ).loc main_arg0) : S100000x128.Idx → EReal) (ix2 r l) := by
  obtain ⟨e0, e1, -⟩ := block_index t
  unfold iblk
  rw [View.read_apply]
  show V m c main_arg0 _ = _
  rw [V_main_arg0]
  refine congrArg _ (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * l.val = l.val; rw [e1]; omega

/-- Any array of the result's shape, read through the second window's block at point t, shows its rows t*5000 .. -/
theorem rows_of_second (t : Fin cfg0.N) (Y : S100000x128.Idx → EReal) (p : Fin 5000) (l : Fin 128) (r : Fin 100000)
    (hr : r.val = t.val * 5000 + p.val) :
    ((cfg0.win 1).blk t).view.read (Elt Ideal) Y (ix2 p l) = Y (ix2 r l) := by
  obtain ⟨-, -, e0, e1, -⟩ := block_index t
  show Y (((cfg0.win 1).blk t).view.emb (ix2 p l)) = Y (ix2 r l)
  refine congrArg Y (funext fun a => Fin.ext ?_)
  match a with
  | ⟨0, _⟩ => show win0_1.index t (0 : Fin 2) * 5000 + 1 * p.val = r.val; rw [e0, hr]; omega
  | ⟨1, _⟩ => show win0_1.index t (1 : Fin 2) * 128 + 1 * l.val = l.val; rw [e1]; omega

/-- The second window's block at point t is rows t*5000 .. of the array the region finds there. -/
theorem rows_nbrs (c : Dev nD) (t : Fin cfg0.N) (p : Fin 5000) (l : Fin 128) (r : Fin 100000) (hr : r.val = t.val * 5000 + p.val) :
    (iblk m c 1 t : Vec Ideal S5000x128 .f32) (ix2 p l)
      = (V m c (Pipeline.arrRef spec0 1) : S100000x128.Idx → EReal) (ix2 r l) := by
  unfold iblk
  exact rows_of_second t (V m c (Pipeline.arrRef spec0 1)) p l r hr

/-- The third window holds the first weight matrix whole. -/
theorem whole_w1 (c : Dev nD) (t : Fin cfg0.N) (l : Fin 128) (k : Fin 512) :
    (iblk m c 2 t : Vec Ideal S128x512 .bf16) (ix2 l k) = (m ((c : Thread nD τ).loc main_arg2) : S128x512.Idx → EReal) (ix2 l k) := by
  obtain ⟨-, -, -, -, e0, e1, -⟩ := block_index t
  unfold iblk
  rw [View.read_apply]
  show (V m c main_v14 : S128x512.Idx → EReal) _ = _
  rw [Cert.Staged.w1]
  refine congrArg _ (funext fun a => Fin.ext ?_)
  match a with
  | ⟨0, _⟩ => show win0_2.index t (0 : Fin 2) * 128 + 1 * l.val = l.val; rw [e0]; omega
  | ⟨1, _⟩ => show win0_2.index t (1 : Fin 2) * 512 + 1 * k.val = k.val; rw [e1]; omega

/-- The fourth window holds the first bias as its one row. -/
theorem whole_b1 (c : Dev nD) (t : Fin cfg0.N) (k : Fin 512) :
    (iblk m c 3 t : Vec Ideal S1x512 .f32) (ix2 (0 : Fin 1) k) = (m ((c : Thread nD τ).loc main_arg3) : S512.Idx → EReal) (ix1 k) := by
  obtain ⟨-, -, -, -, -, -, e0, e1, -⟩ := block_index t
  unfold iblk
  rw [View.read_apply]
  show (V m c main_v16 : S1x512.Idx → EReal) _ = _
  rw [Cert.Staged.b1]
  refine Eq.trans (congrArg _ (funext fun a => Fin.ext ?_)) (shapeCast_a_1a_apply _ _ (0 : Fin 1) k)
  match a with
  | ⟨0, _⟩ => show win0_3.index t (0 : Fin 2) * 1 + 1 * 0 = 0; rw [e0]
  | ⟨1, _⟩ => show win0_3.index t (1 : Fin 2) * 512 + 1 * k.val = k.val; rw [e1]; omega

/-- The fifth window holds the second weight matrix whole. -/
theorem whole_w2 (c : Dev nD) (t : Fin cfg0.N) (k : Fin 512) (q : Fin 128) :
    (iblk m c 4 t : Vec Ideal S512x128 .bf16) (ix2 k q) = (m ((c : Thread nD τ).loc main_arg4) : S512x128.Idx → EReal) (ix2 k q) := by
  obtain ⟨-, -, -, -, -, -, -, -, e0, e1, -⟩ := block_index t
  unfold iblk
  rw [View.read_apply]
  show (V m c main_v15 : S512x128.Idx → EReal) _ = _
  rw [Cert.Staged.w2]
  refine congrArg _ (funext fun a => Fin.ext ?_)
  match a with
  | ⟨0, _⟩ => show win0_4.index t (0 : Fin 2) * 512 + 1 * k.val = k.val; rw [e0]; omega
  | ⟨1, _⟩ => show win0_4.index t (1 : Fin 2) * 128 + 1 * q.val = q.val; rw [e1]; omega

/-- The sixth window holds the second bias as its one row. -/
theorem whole_b2 (c : Dev nD) (t : Fin cfg0.N) (q : Fin 128) :
    (iblk m c 5 t : Vec Ideal S1x128 .f32) (ix2 (0 : Fin 1) q) = (m ((c : Thread nD τ).loc main_arg5) : S128.Idx → EReal) (ix1 q) := by
  obtain ⟨-, -, -, -, -, -, -, -, -, -, e0, e1, -⟩ := block_index t
  unfold iblk
  rw [View.read_apply]
  show (V m c main_v17 : S1x128.Idx → EReal) _ = _
  rw [Cert.Staged.b2]
  refine Eq.trans (congrArg _ (funext fun a => Fin.ext ?_)) (shapeCast_a_1a_apply _ _ (0 : Fin 1) q)
  match a with
  | ⟨0, _⟩ => show win0_5.index t (0 : Fin 2) * 1 + 1 * 0 = 0; rw [e0]
  | ⟨1, _⟩ => show win0_5.index t (1 : Fin 2) * 128 + 1 * q.val = q.val; rw [e1]; omega

/-- What point t writes back is the layer read through point t's block of the result array — for ANY array Y whose
    rows t*5000 .. the second window's block holds, in the place of the neighbours' sum. -/
theorem flushed_of (c : Dev nD) (t : Fin cfg0.N) (Y : S100000x128.Idx → EReal)
    (hY : ∀ (p : Fin 5000) (l : Fin 128) (r : Fin 100000), r.val = t.val * 5000 + p.val →
      (iblk m c 1 t : Vec Ideal S5000x128 .f32) (ix2 p l) = Y (ix2 r l)) :
    (dats m 0 c).flushed 6 t = ((cfg0.win 6).blk t).view.read (Elt Ideal)
      (layer (m ((c : Thread nD τ).loc main_arg0)) Y (m ((c : Thread nD τ).loc main_arg2))
        (m ((c : Thread nD τ).loc main_arg3)) (m ((c : Thread nD τ).loc main_arg4)) (m ((c : Thread nD τ).loc main_arg5))) := by
  obtain ⟨-, -, -, -, -, -, -, -, -, -, -, -, e0, e1⟩ := block_index t
  rw [Cert.KernelIdeal.Value.flushed6]
  unfold out0_6
  rw [View.canon_unit_zero zero_offsets]
  simp only [View.ld_unit_zero (S := S5000x128) zero_offsets, View.ld_unit_zero (S := S128x512) zero_offsets,
    View.ld_unit_zero (S := S1x512) zero_offsets, View.ld_unit_zero (S := S512x128) zero_offsets,
    View.ld_unit_zero (S := S1x128) zero_offsets]
  funext j
  show k0_pay1 (F := Ideal) (iblk m c 0 t) (iblk m c 1 t) (iblk m c 2 t) (iblk m c 3 t) (iblk m c 4 t) (iblk m c 5 t) j
    = layer (m ((c : Thread nD τ).loc main_arg0)) Y (m ((c : Thread nD τ).loc main_arg2))
        (m ((c : Thread nD τ).loc main_arg3)) (m ((c : Thread nD τ).loc main_arg4)) (m ((c : Thread nD τ).loc main_arg5))
        (((cfg0.win 6).blk t).view.emb j)
  refine Cert.BlockLayer.block_eq t.val (m ((c : Thread nD τ).loc main_arg0)) Y (m ((c : Thread nD τ).loc main_arg2))
    (m ((c : Thread nD τ).loc main_arg3)) (m ((c : Thread nD τ).loc main_arg4)) (m ((c : Thread nD τ).loc main_arg5))
    (iblk m c 0 t) (iblk m c 1 t) (iblk m c 2 t) (iblk m c 3 t) (iblk m c 4 t) (iblk m c 5 t)
    (rows_x m c t) hY (whole_w1 m c t) (whole_b1 m c t) (whole_w2 m c t) (whole_b2 m c t)
    j (((cfg0.win 6).blk t).view.emb j) ?_ ?_
  · show win0_6.index t (0 : Fin 2) * 5000 + 1 * (j 0).val = t.val * 5000 + (j 0).val
    rw [e0]; omega
  · show win0_6.index t (1 : Fin 2) * 128 + 1 * (j 1).val = (j 1).val
    rw [e1]; omega

/-- The layer of the arguments, with the neighbours' sum the array the region finds in its second window. -/
def result (c : Dev nD) : S100000x128.Idx → EReal :=
  layer (m ((c : Thread nD τ).loc main_arg0)) (V m c (Pipeline.arrRef spec0 1)) (m ((c : Thread nD τ).loc main_arg2))
    (m ((c : Thread nD τ).loc main_arg3)) (m ((c : Thread nD τ).loc main_arg4)) (m ((c : Thread nD τ).loc main_arg5))

/-- What point t writes back is the layer read through point t's block of the result array. -/
theorem flushed_eq (c : Dev nD) (t : Fin cfg0.N) :
    (dats m 0 c).flushed 6 t = ((cfg0.win 6).blk t).view.read (Elt Ideal) (result m c) := by
  unfold result
  exact flushed_of m c t (V m c (Pipeline.arrRef spec0 1)) (rows_nbrs m c t)

/-- An index of the result array is in point t's block iff each coordinate is in the block's range on its axis. -/
theorem mem_block (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v18).slice (win0_6.rect t)).set ↔ _
  rw [View.set_slice_whole, Rect.mem_set_unit]
  exact Iff.rfl

/-- Every row is in some point's block: row r in that of point r / 5000. -/
theorem covered (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_6 _, ?_⟩
  obtain ⟨-, -, -, -, -, -, -, -, -, -, -, -, e0, e1⟩ := block_index ⟨(i 0).val / 5000, by rw [hN]; omega⟩
  rw [mem_block]
  intro a
  match a with
  | ⟨0, _⟩ =>
    show win0_6.index _ (0 : Fin 2) * 5000 ≤ (i 0).val ∧ (i 0).val < win0_6.index _ (0 : Fin 2) * 5000 + 5000
    rw [e0]
    show (i 0).val / 5000 * 5000 ≤ (i 0).val ∧ (i 0).val < (i 0).val / 5000 * 5000 + 5000
    omega
  | ⟨1, _⟩ =>
    show win0_6.index _ (1 : Fin 2) * 128 ≤ (i 1).val ∧ (i 1).val < win0_6.index _ (1 : Fin 2) * 128 + 128
    rw [e1]; omega

/-- The result array after the run is the layer. -/
theorem final (c : Dev nD) : (dats m 0 c).arrAt 6 cfg0.N = result m c :=
  (dats m 0 c).arrAt_eq_of_cover 6 (result m c) (fun t _ => flushed_eq m c t) covered

/-- The kernel's run: it terminates with the result array at the layer and the arguments unchanged. -/
theorem run : θ_run defs (onTc (τ := τ) (main (F := Ideal))) ⟨m, fun _ => 0, ρ⟩ fun r => ∀ c : Dev nD,
      r.2.mem ((c : Thread nD τ).loc main_v18) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.Whole

end
-- ==== Proof.lean ====
/-
  A graph-network layer computed by a tiled kernel equals its plain reference, on the extended reals.

  Both programs first sum, for every node, the feature rows of the nodes with an edge into it; those stretches of the
  two programs are the same operations on the same arguments, so that array is one term on both sides and is never
  opened (Staged). The reference then forms 1.0 * x + sum, two matrix products with biases and a rectifier between them:
  entry by entry this is the function `LayerSpec.layer` (RefLayer), using only that 1 * y = y for every extended real.
  The kernel cuts the 100000 nodes into 20 blocks of 5000; on each block its body computes the same two products from
  the block's rows, in a narrower float format that is no change on extended reals (BodyValue), so what it stores is the
  layer restricted to the block's rows (BlockLayer); the blocks tile the result array (Whole). No sum is regrouped and
  nothing is cancelled, so the inputs' finiteness is not used.
-/
import proofs.«149909_j61607010894468_1_alg».proof.Defs
import proofs.«149909_j61607010894468_1_alg».proof.Proof.Gen.Kernel
import proofs.«149909_j61607010894468_1_alg».proof.Proof.Gen.Kernel.Skeleton
import proofs.«149909_j61607010894468_1_alg».proof.Proof.Gen.Kernel.Launch
import proofs.«149909_j61607010894468_1_alg».proof.Proof.Gen.Kernel.Points
import proofs.«149909_j61607010894468_1_alg».proof.Proof.Gen.Kernel.Frame
import proofs.«149909_j61607010894468_1_alg».proof.Proof.Gen.KernelIdeal
import proofs.«149909_j61607010894468_1_alg».proof.Proof.Gen.KernelIdeal.Skeleton
import proofs.«149909_j61607010894468_1_alg».proof.Proof.Gen.KernelIdeal.Launch
import proofs.«149909_j61607010894468_1_alg».proof.Proof.Gen.KernelIdeal.Points
import proofs.«149909_j61607010894468_1_alg».proof.Proof.Gen.KernelIdeal.Frame
import proofs.«149909_j61607010894468_1_alg».proof.Proof.Gen.ReferenceIdeal
import proofs.«149909_j61607010894468_1_alg».proof.Proof.Gen.Pre_finite_inputs
import proofs.«149909_j61607010894468_1_alg».proof.Proof.Gen.KernelIdeal.Value
import proofs.«149909_j61607010894468_1_alg».proof.Proof.Gen.ReferenceIdeal.Run
import proofs.«149909_j61607010894468_1_alg».proof.Proof.Gen.ReferenceIdeal.Read
import proofs.«149909_j61607010894468_1_alg».proof.Proof.RefLayer
import proofs.«149909_j61607010894468_1_alg».proof.Proof.Whole
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read on extended reals. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the layer of the arguments in their result: the
    kernel's blocks tile it (Whole.run), the reference's stages compose to it (RefLayer.result_eq), and the neighbours'
    sum the kernel's region finds is the reference's own stage (Staged.nbrs_window). -/
theorem algebraic : Cert.algebraic_KernelIdeal_ReferenceIdeal := by
  intro m ρ m' ρ' _ hagree
  refine ⟨fun c => Cert.Whole.result m c, Cert.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v25_eq, Cert.RefLayer.result_eq, a0, a1, a2, a3, a4, a5]
  show _ = Cert.Whole.result m c
  unfold Cert.Whole.result
  rw [Cert.Staged.nbrs_window m c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
